-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 69
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S_, .f32⟩
  | .hbm, ⟨51, _⟩ => ⟨S640000, .f32⟩
  | .hbm, ⟨52, _⟩ => ⟨S_, .f32⟩
  | .hbm, ⟨53, _⟩ => ⟨S100000, .f32⟩
  | .hbm, ⟨54, _⟩ => ⟨S640000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S100000x128, .f32⟩
  | .hbm, ⟨56, _⟩ => ⟨S640000x1, .i32⟩
  | .hbm, ⟨57, _⟩ => ⟨S100000x128, .f32⟩
  | .hbm, ⟨58, _⟩ => ⟨S_, .f32⟩
  | .hbm, ⟨59, _⟩ => ⟨S640000, .f32⟩
  | .hbm, ⟨60, _⟩ => ⟨S_, .f32⟩
  | .hbm, ⟨61, _⟩ => ⟨S100000, .f32⟩
  | .hbm, ⟨62, _⟩ => ⟨S640000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibDenseLayer.lean ====
/-
  A dense layer read at a row and a column. For an M x K array x, a K x N array w and a 1 x N row b, the entry (r, c) of
  act (x · w + b) is act ((∑ k, x (r, k) * w (k, c)) + b (0, c)). Two programs compute it: a block body — a matrix-unit
  product of the operands (rounded to a narrower format on the way, which changes nothing at the extended reals) into a
  zero accumulator, plus the row broadcast down the rows — and the host's dot_general plus the bias vector broadcast in
  two steps, [N] → [1, N] → [M, N]. Both are read here at (r, c) as that one expression. A zero row changes nothing:
  adding the real number 0 to an extended real is the identity, infinite or not.
-/
import proofs.«155080_j35905926594660_1_alg».proof.Proof.LibDotIx2
import Idealize.ShloMosaic.Lib.Pipeline.Value

noncomputable section

open scoped BigOperators

namespace Idealize.ShloMosaic.ValueIdx

open Idealize.ShloMosaic

/-- The entry (r, c) of act (x · w + b), b a single row. -/
def denseRC {M K N : ℕ} (act : EReal → EReal) (x : (⟨2, ![M, K]⟩ : Shape).Idx → EReal) (w : (⟨2, ![K, N]⟩ : Shape).Idx → EReal)
    (b : (⟨2, ![1, N]⟩ : Shape).Idx → EReal) (r : Fin M) (c : Fin N) : EReal :=
  act ((∑ k : Fin K, x (ix2 r k) * w (ix2 k c)) + b (ix2 (0 : Fin 1) c))

/-- A 1 x N row broadcast down M rows, read at (r, c): the row's entry c. -/
theorem rowBroadcastTo_ix2 {M N : ℕ} {α : Type} (b : (⟨2, ![1, N]⟩ : Shape).Idx → α)
    (h : (⟨2, ![1, N]⟩ : Shape).Broadcasts (⟨2, ![M, N]⟩ : Shape)) (r : Fin M) (c : Fin N) :
    broadcastTo (⟨2, ![M, N]⟩ : Shape) b h (ix2 r c) = b (ix2 (0 : Fin 1) c) := by
  refine broadcastTo_apply b h (ix2 r c) (ix2 (0 : Fin 1) c) fun a => ?_
  match a with
  | ⟨0, _⟩ => show (0 : ℕ) = if (1 : ℕ) = 1 then 0 else _; rw [if_pos rfl]
  | ⟨1, _⟩ =>
    show c.val = if N = 1 then 0 else c.val
    split_ifs with h1
    · have := c.isLt; omega
    · rfl

/-- The block body's value at (r, c): the product into zeros plus the broadcast row. -/
theorem denseBlock_apply {M K N : ℕ} {d : DotDims (⟨2, ![M, K]⟩ : Shape) (⟨2, ![K, N]⟩ : Shape) (⟨2, ![M, N]⟩ : Shape)}
    (hd : PlainDot d) (x : FVec Ideal (⟨2, ![M, K]⟩ : Shape) .f32) (w : FVec Ideal (⟨2, ![K, N]⟩ : Shape) .f32)
    (b : FVec Ideal (⟨2, ![1, N]⟩ : Shape) .f32) (h1 : FTy.bf16.bits < FTy.f32.bits) (h2 : FTy.bf16.bits < FTy.f32.bits)
    (hb : (⟨2, ![1, N]⟩ : Shape).Broadcasts (⟨2, ![M, N]⟩ : Shape)) (r : Fin M) (c : Fin N) :
    addf (matmul d none (truncf .bf16 x h1) (truncf .bf16 w h2) (constant (⟨2, ![M, N]⟩ : Shape) .f32 0x00000000#32))
        (broadcastTo (⟨2, ![M, N]⟩ : Shape) b hb) (ix2 r c)
      = (∑ k : Fin K, x (ix2 r k) * w (ix2 k c)) + b (ix2 (0 : Fin 1) c) := by
  show FloatOps.matmul d none (truncf .bf16 x h1) (truncf .bf16 w h2) (constant (⟨2, ![M, N]⟩ : Shape) .f32 0x00000000#32) (ix2 r c)
      + broadcastTo (⟨2, ![M, N]⟩ : Shape) b hb (ix2 r c) = _
  rw [matmul_zero_ix2_any hd, rowBroadcastTo_ix2]
  rfl

/-- The host's product at (r, c) is the dense entry with the identity and a zero row. -/
theorem dotGeneral_eq_denseRC {M K N : ℕ} {d : DotDims (⟨2, ![M, K]⟩ : Shape) (⟨2, ![K, N]⟩ : Shape) (⟨2, ![M, N]⟩ : Shape)}
    (hd : PlainDot d) (x : FVec Ideal (⟨2, ![M, K]⟩ : Shape) .f32) (w : FVec Ideal (⟨2, ![K, N]⟩ : Shape) .f32)
    (z : (⟨2, ![1, N]⟩ : Shape).Idx → EReal) (hz : ∀ j, z j = 0) (r : Fin M) (c : Fin N) :
    Host.dotGeneral d none x w (ix2 r c) = denseRC id x w z r c := by
  unfold denseRC
  rw [hz, add_zero]
  exact dotGeneral_ix2_any hd none _ x w r c

end Idealize.ShloMosaic.ValueIdx

end
-- ==== Proof.CombineSpec.lean ====
/-
  The two-direction neighbourhood layer, read at a row and a column.

  For node features X (M rows of 128), the mean of the incoming neighbours' rows A_in, the mean of the outgoing
  neighbours' rows A_out, four 128 x 128 weight arrays (already transposed, so that a product contracts the weights'
  first axis) and two bias rows, the entry (r, c) of the layer is

      ((sum_k A_in(r,k) * Wl_in(k,c)) + b_in(0,c) + sum_k X(r,k) * Wr_in(k,c))
    + ((sum_k A_out(r,k) * Wl_out(k,c)) + b_out(0,c) + sum_k X(r,k) * Wr_out(k,c)).

  Row r of the result reads only row r of X, A_in and A_out, so a block of rows of the result is the same expression of
  the same block of rows of the three arrays: the number of rows M is a parameter.
-/
import proofs.«155080_j35905926594660_1_alg».proof.Proof.LibDenseLayer

noncomputable section

open scoped BigOperators

namespace Cert.Combine

open Idealize.ShloMosaic Idealize.ShloMosaic.ValueIdx

/-- One direction at (r, c): the aggregated row through the left weights, plus the bias, plus the node's own row
    through the right weights — added in this order. -/
def sage {M : ℕ} (X A : (⟨2, ![M, 128]⟩ : Shape).Idx → EReal) (Wl Wr : (⟨2, ![128, 128]⟩ : Shape).Idx → EReal)
    (b : (⟨2, ![1, 128]⟩ : Shape).Idx → EReal) (r : Fin M) (c : Fin 128) : EReal :=
  ((∑ k : Fin 128, A (ix2 r k) * Wl (ix2 k c)) + b (ix2 (0 : Fin 1) c)) + ∑ k : Fin 128, X (ix2 r k) * Wr (ix2 k c)

/-- Both directions added, as one array of M rows. -/
def combine {M : ℕ} (X Ain Aout : (⟨2, ![M, 128]⟩ : Shape).Idx → EReal)
    (WlIn WrIn WlOut WrOut : (⟨2, ![128, 128]⟩ : Shape).Idx → EReal)
    (bIn bOut : (⟨2, ![1, 128]⟩ : Shape).Idx → EReal) : (⟨2, ![M, 128]⟩ : Shape).Idx → EReal :=
  fun i => sage X Ain WlIn WrIn bIn (i 0) (i 1) + sage X Aout WlOut WrOut bOut (i 0) (i 1)

theorem combine_ix2 {M : ℕ} (X Ain Aout : (⟨2, ![M, 128]⟩ : Shape).Idx → EReal)
    (WlIn WrIn WlOut WrOut : (⟨2, ![128, 128]⟩ : Shape).Idx → EReal)
    (bIn bOut : (⟨2, ![1, 128]⟩ : Shape).Idx → EReal) (r : Fin M) (c : Fin 128) :
    combine X Ain Aout WlIn WrIn WlOut WrOut bIn bOut (ix2 r c)
      = sage X Ain WlIn WrIn bIn r c + sage X Aout WlOut WrOut bOut r c := rfl

/-- Equal arrays give equal layers. -/
theorem combine_congr {M : ℕ} {X X' Ain Ain' Aout Aout' : (⟨2, ![M, 128]⟩ : Shape).Idx → EReal}
    {WlIn WlIn' WrIn WrIn' WlOut WlOut' WrOut WrOut' : (⟨2, ![128, 128]⟩ : Shape).Idx → EReal}
    {bIn bIn' bOut bOut' : (⟨2, ![1, 128]⟩ : Shape).Idx → EReal}
    (h0 : X = X') (h1 : Ain = Ain') (h2 : Aout = Aout') (h3 : WlIn = WlIn') (h4 : WrIn = WrIn') (h5 : WlOut = WlOut')
    (h6 : WrOut = WrOut') (h7 : bIn = bIn') (h8 : bOut = bOut') :
    combine X Ain Aout WlIn WrIn WlOut WrOut bIn bOut = combine X' Ain' Aout' WlIn' WrIn' WlOut' WrOut' bIn' bOut' := by
  subst h0 h1 h2 h3 h4 h5 h6 h7 h8; rfl

/-- A direction's entry depends on the arrays only through row r of X and A (and all of the weights and the bias):
    rows that agree give the same entry, whatever the two arrays' numbers of rows. -/
theorem sage_congr {M M' : ℕ} (X A : (⟨2, ![M, 128]⟩ : Shape).Idx → EReal) (X' A' : (⟨2, ![M', 128]⟩ : Shape).Idx → EReal)
    (Wl Wr Wl' Wr' : (⟨2, ![128, 128]⟩ : Shape).Idx → EReal) (b b' : (⟨2, ![1, 128]⟩ : Shape).Idx → EReal)
    (r : Fin M) (r' : Fin M') (c : Fin 128)
    (hX : ∀ k : Fin 128, X (ix2 r k) = X' (ix2 r' k)) (hA : ∀ k : Fin 128, A (ix2 r k) = A' (ix2 r' k))
    (hWl : ∀ k : Fin 128, Wl (ix2 k c) = Wl' (ix2 k c)) (hWr : ∀ k : Fin 128, Wr (ix2 k c) = Wr' (ix2 k c))
    (hb : b (ix2 (0 : Fin 1) c) = b' (ix2 (0 : Fin 1) c)) :
    sage X A Wl Wr b r c = sage X' A' Wl' Wr' b' r' c := by
  unfold sage
  rw [hb]
  refine congrArg₂ (· + ·) (congrArg₂ (· + ·) (Finset.sum_congr rfl fun k _ => ?_) rfl) (Finset.sum_congr rfl fun k _ => ?_)
  · rw [hA k, hWl k]
  · rw [hX k, hWr k]

end Cert.Combine

end
-- ==== Proof.CombineBlock.lean ====
/-
  The kernel body's arithmetic at one entry of its block.

  The body loads a block of rows of X, A_in and A_out, the four weight arrays and the two bias rows, rounds the
  matrix operands to a narrower float format (the identity at the extended reals), takes four matrix-unit products into
  zero accumulators, adds each bias row broadcast down the rows, and adds the pieces in the order
  ((A_in Wl_in + b_in) + X Wr_in) + ((A_out Wl_out + b_out) + X Wr_out). At the entry (p, q) of the block that is the
  two-direction layer's entry (p, q) of the loaded blocks.
-/
import proofs.«155080_j35905926594660_1_alg».proof.Proof.Gen.KernelIdeal.Skeleton
import proofs.«155080_j35905926594660_1_alg».proof.Proof.CombineSpec

noncomputable section

open scoped BigOperators

namespace Cert.KernelIdeal.Hand

open Cert.KernelIdeal Cert.KernelIdeal.Gen Idealize.ShloMosaic Idealize.ShloMosaic.ValueIdx

/-- The body's matrix products contract the left operand's columns with the right operand's rows and batch nothing. -/
theorem plainDot : PlainDot (M := 5000) (K := 128) (N := 128) dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The body's stored value at (p, q) is the layer's entry (p, q) of the loaded blocks. -/
theorem payload_apply (x0 x1 x2 : Vec Ideal S5000x128 .f32) (w3 w4 w5 w6 : Vec Ideal S128x128 .f32)
    (b7 b8 : Vec Ideal S1x128 .f32) (p : Fin 5000) (q : Fin 128) :
    k0_pay1 (F := Ideal) x0 x1 x2 w3 w4 w5 w6 b7 b8 (ix2 p q)
      = Cert.Combine.sage x0 x1 w3 w4 b7 p q + Cert.Combine.sage x0 x2 w5 w6 b8 p q := by
  unfold k0_pay1 Cert.Combine.sage
  simp only [shapeCast_self]
  refine congrArg₂ (· + ·) (congrArg₂ (· + ·) ?_ ?_) (congrArg₂ (· + ·) ?_ ?_)
  · exact denseBlock_apply plainDot x1 w3 b7 _ _ _ p q
  · exact matmul_zero_ix2_any plainDot none _ _ p q
  · exact denseBlock_apply plainDot x2 w5 b8 _ _ _ p q
  · exact matmul_zero_ix2_any plainDot none _ _ p q

end Cert.KernelIdeal.Hand

end
-- ==== Proof.CombineValue.lean ====
/-
  The kernel's result array as one function of the arrays its launch finds.

  The grid has 20 points; point t stages rows 5000 t … 5000 t + 4999 of the three row arrays (the node features and the
  two neighbourhood means), all of each weight array and bias row, and writes back rows 5000 t … 5000 t + 4999 of the
  result. A row of the layer reads only the same row of the row arrays, so what point t writes back is block t of the
  layer of the whole arrays; the 20 blocks tile the 100000 rows, so the result array ends holding the layer. The block
  arithmetic is done for arbitrary arrays; the arrays the launch finds enter only at the end, by name.
-/
import proofs.«155080_j35905926594660_1_alg».proof.Proof.Gen.KernelIdeal.Value
import proofs.«155080_j35905926594660_1_alg».proof.Proof.CombineBlock

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The index maps over the grid: the row windows' block index at point t is (t, 0), the weights' and the bias rows'
    is (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## Each window's block at a point, read off an array -/

/-- Point t's block of the node features is rows 5000 t … 5000 t + 4999 of it. -/
theorem rows0_read (A : S100000x128.Idx → EReal) (t : Fin cfg0.N) (p : Fin 5000) (k : Fin 128) (r : Fin 100000)
    (hr : r.val = 5000 * t.val + p.val) :
    (((cfg0.win 0).blk t).view.read (Elt Ideal) A : S5000x128.Idx → EReal) (ix2 p k) = A (ix2 r k) := by
  have e := idx_facts t
  show A (((cfg0.win 0).blk t).view.emb (ix2 p k)) = _
  refine congrArg A ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Point t's block of the incoming mean is rows 5000 t … 5000 t + 4999 of it. -/
theorem rows1_read (A : S100000x128.Idx → EReal) (t : Fin cfg0.N) (p : Fin 5000) (k : Fin 128) (r : Fin 100000)
    (hr : r.val = 5000 * t.val + p.val) :
    (((cfg0.win 1).blk t).view.read (Elt Ideal) A : S5000x128.Idx → EReal) (ix2 p k) = A (ix2 r k) := by
  have e := idx_facts t
  show A (((cfg0.win 1).blk t).view.emb (ix2 p k)) = _
  refine congrArg A ?_
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- Point t's block of the outgoing mean is rows 5000 t … 5000 t + 4999 of it. -/
theorem rows2_read (A : S100000x128.Idx → EReal) (t : Fin cfg0.N) (p : Fin 5000) (k : Fin 128) (r : Fin 100000)
    (hr : r.val = 5000 * t.val + p.val) :
    (((cfg0.win 2).blk t).view.read (Elt Ideal) A : S5000x128.Idx → EReal) (ix2 p k) = A (ix2 r k) := by
  have e := idx_facts t
  show A (((cfg0.win 2).blk t).view.emb (ix2 p k)) = _
  refine congrArg A ?_
  funext a; apply Fin.ext
  match a with
  | ⟨0, _⟩ => show win0_2.index t (0 : Fin 2) * 5000 + 1 * p.val = r.val; omega
  | ⟨1, _⟩ => show win0_2.index t (1 : Fin 2) * 128 + 1 * k.val = k.val; omega

/-- Every point stages the whole of the incoming left weights. -/
theorem whole3_read (A : S128x128.Idx → EReal) (t : Fin cfg0.N) (k q : Fin 128) :
    (((cfg0.win 3).blk t).view.read (Elt Ideal) A : S128x128.Idx → EReal) (ix2 k q) = A (ix2 k q) := by
  have e := idx_facts t
  show A (((cfg0.win 3).blk t).view.emb (ix2 k q)) = _
  refine congrArg A ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- Every point stages the whole of the incoming right weights. -/
theorem whole4_read (A : S128x128.Idx → EReal) (t : Fin cfg0.N) (k q : Fin 128) :
    (((cfg0.win 4).blk t).view.read (Elt Ideal) A : S128x128.Idx → EReal) (ix2 k q) = A (ix2 k q) := by
  have e := idx_facts t
  show A (((cfg0.win 4).blk t).view.emb (ix2 k q)) = _
  refine congrArg A ?_
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- Every point stages the whole of the outgoing left weights. -/
theorem whole5_read (A : S128x128.Idx → EReal) (t : Fin cfg0.N) (k q : Fin 128) :
    (((cfg0.win 5).blk t).view.read (Elt Ideal) A : S128x128.Idx → EReal) (ix2 k q) = A (ix2 k q) := by
  have e := idx_facts t
  show A (((cfg0.win 5).blk t).view.emb (ix2 k q)) = _
  refine congrArg A ?_
  funext a; apply Fin.ext
  match a with
  | ⟨0, _⟩ => show win0_5.index t (0 : Fin 2) * 128 + 1 * k.val = k.val; omega
  | ⟨1, _⟩ => show win0_5.index t (1 : Fin 2) * 128 + 1 * q.val = q.val; omega

/-- Every point stages the whole of the outgoing right weights. -/
theorem whole6_read (A : S128x128.Idx → EReal) (t : Fin cfg0.N) (k q : Fin 128) :
    (((cfg0.win 6).blk t).view.read (Elt Ideal) A : S128x128.Idx → EReal) (ix2 k q) = A (ix2 k q) := by
  have e := idx_facts t
  show A (((cfg0.win 6).blk t).view.emb (ix2 k q)) = _
  refine congrArg A ?_
  funext a; apply Fin.ext
  match a with
  | ⟨0, _⟩ => show win0_6.index t (0 : Fin 2) * 128 + 1 * k.val = k.val; omega
  | ⟨1, _⟩ => show win0_6.index t (1 : Fin 2) * 128 + 1 * q.val = q.val; omega

/-- Every point stages the whole of the incoming bias row. -/
theorem whole7_read (A : S1x128.Idx → EReal) (t : Fin cfg0.N) (q : Fin 128) :
    (((cfg0.win 7).blk t).view.read (Elt Ideal) A : S1x128.Idx → EReal) (ix2 (0 : Fin 1) q) = A (ix2 (0 : Fin 1) q) := by
  have e := idx_facts t
  show A (((cfg0.win 7).blk t).view.emb (ix2 (0 : Fin 1) q)) = _
  refine congrArg A ?_
  funext a; apply Fin.ext
  match a with
  | ⟨0, _⟩ => show win0_7.index t (0 : Fin 2) * 1 + 1 * (0 : Fin 1).val = (0 : Fin 1).val; omega
  | ⟨1, _⟩ => show win0_7.index t (1 : Fin 2) * 128 + 1 * q.val = q.val; omega

/-- Every point stages the whole of the outgoing bias row. -/
theorem whole8_read (A : S1x128.Idx → EReal) (t : Fin cfg0.N) (q : Fin 128) :
    (((cfg0.win 8).blk t).view.read (Elt Ideal) A : S1x128.Idx → EReal) (ix2 (0 : Fin 1) q) = A (ix2 (0 : Fin 1) q) := by
  have e := idx_facts t
  show A (((cfg0.win 8).blk t).view.emb (ix2 (0 : Fin 1) q)) = _
  refine congrArg A ?_
  funext a; apply Fin.ext
  match a with
  | ⟨0, _⟩ => show win0_8.index t (0 : Fin 2) * 1 + 1 * (0 : Fin 1).val = (0 : Fin 1).val; omega
  | ⟨1, _⟩ => show win0_8.index t (1 : Fin 2) * 128 + 1 * q.val = q.val; omega

/-! ## What a point writes back -/

/-- The body's stored value at an entry of point t's block is the layer of the whole arrays at that entry's place in
    the result array. -/
theorem block_eq (A0 A1 A2 : S100000x128.Idx → EReal) (A3 A4 A5 A6 : S128x128.Idx → EReal) (A7 A8 : S1x128.Idx → EReal)
    (t : Fin cfg0.N) (y : S5000x128.Idx) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) (((cfg0.win 7).blk t).view.read (Elt Ideal) A7)
        (((cfg0.win 8).blk t).view.read (Elt Ideal) A8) y
      = Cert.Combine.combine (M := 100000) A0 A1 A2 A3 A4 A5 A6 A7 A8 (((cfg0.win 9).blk t).view.emb y) := by
  obtain ⟨p, q, rfl⟩ : ∃ (p : Fin 5000) (q : Fin 128), y = ix2 p q := ⟨y 0, y 1, eq_ix2 y⟩
  have e := idx_facts t
  have ht : t.val < 20 := Nat.lt_of_lt_of_eq t.isLt (show cfg0.N = 20 from N_0)
  have hr : 5000 * t.val + p.val < 100000 := by have := p.isLt; omega
  have hemb : ((cfg0.win 9).blk t).view.emb (ix2 p q) = ix2 (⟨5000 * t.val + p.val, hr⟩ : Fin 100000) q := by
    funext a; apply Fin.ext
    match a with
    | ⟨0, _⟩ => show win0_9.index t (0 : Fin 2) * 5000 + 1 * p.val = 5000 * t.val + p.val; omega
    | ⟨1, _⟩ => show win0_9.index t (1 : Fin 2) * 128 + 1 * q.val = q.val; omega
  rw [hemb]
  refine (payload_apply _ _ _ _ _ _ _ _ _ p q).trans ?_
  rw [Cert.Combine.combine_ix2]
  refine congrArg₂ (· + ·) ?_ ?_
  · exact Cert.Combine.sage_congr _ _ A0 A1 _ _ A3 A4 _ A7 p ⟨5000 * t.val + p.val, hr⟩ q
      (fun k => rows0_read A0 t p k _ rfl) (fun k => rows1_read A1 t p k _ rfl)
      (fun k => whole3_read A3 t k q) (fun k => whole4_read A4 t k q) (whole7_read A7 t q)
  · exact Cert.Combine.sage_congr _ _ A0 A2 _ _ A5 A6 _ A8 p ⟨5000 * t.val + p.val, hr⟩ q
      (fun k => rows0_read A0 t p k _ rfl) (fun k => rows2_read A2 t p k _ rfl)
      (fun k => whole5_read A5 t k q) (fun k => whole6_read A6 t k q) (whole8_read A8 t q)

/-- So the part of the body's stored block that point t writes back is block t of the layer. -/
theorem block_fun (A0 A1 A2 : S100000x128.Idx → EReal) (A3 A4 A5 A6 : S128x128.Idx → EReal) (A7 A8 : S1x128.Idx → EReal)
    (t : Fin cfg0.N) :
    (cfg0.win 9).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (((cfg0.win 7).blk t).view.read (Elt Ideal) A7)
          (((cfg0.win 8).blk t).view.read (Elt Ideal) A8))
      = ((cfg0.win 9).blk t).view.read (Elt Ideal) (Cert.Combine.combine (M := 100000) A0 A1 A2 A3 A4 A5 A6 A7 A8) := by
  funext y
  exact block_eq A0 A1 A2 A3 A4 A5 A6 A7 A8 t y

/-! ## The result array -/

variable (m : (ℓ : Loc nD τ sig) → Buf (Elt Ideal) ℓ) (ρ : Dev nD → PrngReg)

/-- The two-direction layer of the arrays as the launch finds them, window by window. -/
def layerV (c : Dev nD) : S100000x128.Idx → EReal :=
  Cert.Combine.combine (M := 100000) (V m c (Pipeline.arrRef spec0 0)) (V m c (Pipeline.arrRef spec0 1))
    (V m c (Pipeline.arrRef spec0 2)) (V m c (Pipeline.arrRef spec0 3)) (V m c (Pipeline.arrRef spec0 4))
    (V m c (Pipeline.arrRef spec0 5)) (V m c (Pipeline.arrRef spec0 6)) (V m c (Pipeline.arrRef spec0 7))
    (V m c (Pipeline.arrRef spec0 8))

/-- What point t writes back is block t of the layer. -/
theorem flushed_eq (c : Dev nD) (t : Fin cfg0.N) :
    (dats m 0 c).flushed 9 t = ((cfg0.win 9).blk t).view.read (Elt Ideal) (layerV m c) := by
  rw [flushed9]
  unfold out0_9
  rw [View.canon_unit_zero hz]
  simp only [View.ld_unit_zero (S := S5000x128) hz, View.ld_unit_zero (S := S128x128) hz, View.ld_unit_zero (S := S1x128) hz]
  unfold iblk layerV
  exact block_fun _ _ _ _ _ _ _ _ _ t

/-- An index of the result array is in point t's block iff its row is among that block's 5000 rows. -/
theorem mem_blk (t : Fin cfg0.N) (i : S100000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v48).slice (win0_9.rect t)).set ↔ _
  rw [View.set_slice_whole, Rect.mem_set_unit]
  exact Iff.rfl

/-- The 20 blocks tile the result array: row r lies in the block of point r / 5000. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  have e := idx_facts t
  refine ⟨t, flush0_9 t, ?_⟩
  rw [mem_blk]
  intro a
  match a with
  | ⟨0, _⟩ =>
    show win0_9.index t (0 : Fin 2) * 5000 ≤ (i 0).val ∧ (i 0).val < win0_9.index t (0 : Fin 2) * 5000 + 5000
    omega
  | ⟨1, _⟩ =>
    show win0_9.index t (1 : Fin 2) * 128 ≤ (i 1).val ∧ (i 1).val < win0_9.index t (1 : Fin 2) * 128 + 128
    omega

/-- So the result array ends holding the layer. -/
theorem final (c : Dev nD) : (dats m 0 c).arrAt 9 cfg0.N = layerV m c :=
  (dats m 0 c).arrAt_eq_of_cover 9 (layerV m c) (fun t _ => flushed_eq m c t) cover

end Cert.KernelIdeal.Hand

end
-- ==== Proof.LibRowOfVector.lean ====
/-
  A vector of length n laid out as a 1 × n row in two ways — by a reshape, and by a broadcast_in_dim that sends the
  vector's one axis to the row's second axis — is the same array: both read the vector at the row index's second
  coordinate. (The reshape keeps the row-major position; the broadcast drops the unit axis.)
-/
import Idealize.ShloMosaic.Lib.Pipeline.Value
import Idealize.ShloMosaic.Lib.ValueIdx

noncomputable section

namespace Idealize.ShloMosaic.ValueIdx

open Idealize.ShloMosaic

/-- A reshape [n] → [1, n] equals the broadcast_in_dim [n] → [1, n] with dims = [1], for n ≠ 1. -/
theorem shapeCast_row_eq_broadcastInDim {α : Type} {n : ℕ} (hn : n ≠ 1) (x : (⟨1, ![n]⟩ : Shape).Idx → α)
    (h : (⟨1, ![n]⟩ : Shape).ShapeCasts ⟨1 + 1, Matrix.vecCons 1 ![n]⟩)
    (h' : (⟨1, ![n]⟩ : Shape).BroadcastsInDim ⟨1 + 1, Matrix.vecCons 1 ![n]⟩ ![1]) :
    shapeCast ⟨1 + 1, Matrix.vecCons 1 ![n]⟩ x h = broadcastInDim ⟨1 + 1, Matrix.vecCons 1 ![n]⟩ ![1] h' x := by
  funext j
  refine (shapeCast_addUnit_apply ![n] x h j).trans (broadcastInDim_apply ![1] h' x j (fun a => j a.succ) fun a => ?_).symm
  match a with
  | ⟨0, _⟩ =>
    show (j (Fin.succ 0)).val = if n = 1 then 0 else (j ((![1] : Fin 1 → Fin 2) 0)).val
    rw [if_neg hn]; rfl

end Idealize.ShloMosaic.ValueIdx

end
-- ==== Proof.CombineHost.lean ====
/-
  What the kernel launch finds in its operand arrays, as functions of the program's arguments.

  Before the launch the host gathers the rows of the node features along the edges, scatter-adds them into the
  neighbourhood sums, counts the neighbours, divides (the two neighbourhood means, one per edge direction), transposes the four weight
  arrays and lays the two bias vectors out as rows. The reference computes the same means and the same transposes by
  the same operations in the same order, so each of these arrays is the reference's stage of the same arguments: the
  means and the transposes are carried as those stages and never opened. Only the bias rows are spelt differently — a
  reshape [128] → [1, 128] here, a broadcast of the vector's axis to the row's second axis in the reference — and the two
  layouts are one array.
-/
import proofs.«155080_j35905926594660_1_alg».proof.Proof.Gen.KernelIdeal.Frame
import proofs.«155080_j35905926594660_1_alg».proof.Proof.Gen.ReferenceIdeal.Read
import proofs.«155080_j35905926594660_1_alg».proof.Proof.LibRowOfVector

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The mean of the incoming neighbours' rows is the reference's stage of the node features and the edge list. -/
theorem V_aggIn (c : Dev nD) :
    (V m c main_v22 : S100000x128.Idx → Elt F .f32)
      = Cert.ReferenceIdeal.Read.val_main_v22 (F := F) (m ((c : Thread nD τ).loc main_arg0)) (m ((c : Thread nD τ).loc main_arg1)) := by
  dsimp only [V, hostOps0]
  after_results_simp
  rfl

/-- The mean of the outgoing neighbours' rows, likewise (the edge list's two rows exchanged). -/
theorem V_aggOut (c : Dev nD) :
    (V m c main_v41 : S100000x128.Idx → Elt F .f32)
      = Cert.ReferenceIdeal.Read.val_main_v49 (F := F) (m ((c : Thread nD τ).loc main_arg0)) (m ((c : Thread nD τ).loc main_arg1)) := by
  dsimp only [V, hostOps0]
  after_results_simp
  rfl

/-- The four transposed weight arrays are the reference's transposes. -/
theorem V_wlIn (c : Dev nD) :
    (V m c main_v42 : S128x128.Idx → Elt F .f32) = Cert.ReferenceIdeal.Read.val_main_v23 (F := F) (m ((c : Thread nD τ).loc main_arg2)) := by
  dsimp only [V, hostOps0]
  after_results_simp
  rfl

theorem V_wrIn (c : Dev nD) :
    (V m c main_v43 : S128x128.Idx → Elt F .f32) = Cert.ReferenceIdeal.Read.val_main_v28 (F := F) (m ((c : Thread nD τ).loc main_arg4)) := by
  dsimp only [V, hostOps0]
  after_results_simp
  rfl

theorem V_wlOut (c : Dev nD) :
    (V m c main_v44 : S128x128.Idx → Elt F .f32) = Cert.ReferenceIdeal.Read.val_main_v50 (F := F) (m ((c : Thread nD τ).loc main_arg5)) := by
  dsimp only [V, hostOps0]
  after_results_simp
  rfl

theorem V_wrOut (c : Dev nD) :
    (V m c main_v45 : S128x128.Idx → Elt F .f32) = Cert.ReferenceIdeal.Read.val_main_v55 (F := F) (m ((c : Thread nD τ).loc main_arg7)) := by
  dsimp only [V, hostOps0]
  after_results_simp
  rfl

/-- The incoming bias as a row: the reshape of the vector is the reference's broadcast of it. -/
theorem V_bIn (c : Dev nD) :
    (V m c main_v46 : S1x128.Idx → Elt F .f32) = Cert.ReferenceIdeal.Read.val_main_v25 (F := F) (m ((c : Thread nD τ).loc main_arg3)) := by
  dsimp only [V, hostOps0]
  after_results_simp
  exact shapeCast_row_eq_broadcastInDim (n := 128) (by decide) _ _ _

/-- The outgoing bias as a row, likewise. -/
theorem V_bOut (c : Dev nD) :
    (V m c main_v47 : S1x128.Idx → Elt F .f32) = Cert.ReferenceIdeal.Read.val_main_v52 (F := F) (m ((c : Thread nD τ).loc main_arg6)) := by
  dsimp only [V, hostOps0]
  after_results_simp
  exact shapeCast_row_eq_broadcastInDim (n := 128) (by decide) _ _ _

end Cert.KernelIdeal.Hand

end
-- ==== Proof.CombineRef.lean ====
/-
  The reference's result as the two-direction layer of its own stages.

  The reference adds, for each edge direction, the host's product of the neighbourhood mean with the transposed left
  weights, the bias vector laid out as a row and broadcast down the rows, and the product of the node features with the
  transposed right weights, in the order ((A Wl + b) + X Wr), and then adds the two directions. At the extended reals each
  host product at (r, c) is the sum over k of left (r, k) * right (k, c), so the result at (r, c) is the layer's entry
  (r, c) of the node features, the two means, the four transposes and the two bias rows — each kept as the stage the
  reference computes it by, not opened.
-/
import proofs.«155080_j35905926594660_1_alg».proof.Proof.Gen.ReferenceIdeal.Read
import proofs.«155080_j35905926594660_1_alg».proof.Proof.CombineSpec

noncomputable section

open scoped BigOperators

namespace Cert.ReferenceIdeal.Hand

open Cert.ReferenceIdeal Cert.ReferenceIdeal.Gen Cert.ReferenceIdeal.Read Idealize.ShloMosaic Idealize.ShloMosaic.ValueIdx

/-! The composed index functions of the stage lemmas, at (r, c): a product's left operand is read at (r, k), its right
    operand at (k, c), a bias row broadcast down the rows at (0, c). -/

theorem l24 (r : Fin 100000) (c k : Fin 128) : lidx_main_v24 (ix2 r c) k = ix2 r k :=
  funext fun a => Fin.ext (by match a with | ⟨0, _⟩ => rfl | ⟨1, _⟩ => rfl)
theorem r24 (r : Fin 100000) (c k : Fin 128) : ridx_main_v24 (ix2 r c) k = ix2 k c :=
  funext fun a => Fin.ext (by match a with | ⟨0, _⟩ => rfl | ⟨1, _⟩ => rfl)
theorem l29 (r : Fin 100000) (c k : Fin 128) : lidx_main_v29 (ix2 r c) k = ix2 r k :=
  funext fun a => Fin.ext (by match a with | ⟨0, _⟩ => rfl | ⟨1, _⟩ => rfl)
theorem r29 (r : Fin 100000) (c k : Fin 128) : ridx_main_v29 (ix2 r c) k = ix2 k c :=
  funext fun a => Fin.ext (by match a with | ⟨0, _⟩ => rfl | ⟨1, _⟩ => rfl)
theorem l51 (r : Fin 100000) (c k : Fin 128) : lidx_main_v51 (ix2 r c) k = ix2 r k :=
  funext fun a => Fin.ext (by match a with | ⟨0, _⟩ => rfl | ⟨1, _⟩ => rfl)
theorem r51 (r : Fin 100000) (c k : Fin 128) : ridx_main_v51 (ix2 r c) k = ix2 k c :=
  funext fun a => Fin.ext (by match a with | ⟨0, _⟩ => rfl | ⟨1, _⟩ => rfl)
theorem l56 (r : Fin 100000) (c k : Fin 128) : lidx_main_v56 (ix2 r c) k = ix2 r k :=
  funext fun a => Fin.ext (by match a with | ⟨0, _⟩ => rfl | ⟨1, _⟩ => rfl)
theorem r56 (r : Fin 100000) (c k : Fin 128) : ridx_main_v56 (ix2 r c) k = ix2 k c :=
  funext fun a => Fin.ext (by match a with | ⟨0, _⟩ => rfl | ⟨1, _⟩ => rfl)
theorem b26 (r : Fin 100000) (c : Fin 128) : idx_main_v26 (ix2 r c) = ix2 (0 : Fin 1) c :=
  funext fun a => Fin.ext (by match a with | ⟨0, _⟩ => rfl | ⟨1, _⟩ => rfl)
theorem b53 (r : Fin 100000) (c : Fin 128) : idx_main_v53 (ix2 r c) = ix2 (0 : Fin 1) c :=
  funext fun a => Fin.ext (by match a with | ⟨0, _⟩ => rfl | ⟨1, _⟩ => rfl)

/-- The reference's result is the layer of its stages. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7
      = Cert.Combine.combine (M := 100000) x0 (val_main_v22 (F := Ideal) x0 x1) (val_main_v49 (F := Ideal) x0 x1)
          (val_main_v23 (F := Ideal) x2) (val_main_v28 (F := Ideal) x4) (val_main_v50 (F := Ideal) x5) (val_main_v55 (F := Ideal) x7)
          (val_main_v25 (F := Ideal) x3) (val_main_v52 (F := Ideal) x6) := by
  funext i
  obtain ⟨r, c, rfl⟩ : ∃ (r : Fin 100000) (c : Fin 128), i = ix2 r c := ⟨i 0, i 1, eq_ix2 i⟩
  rw [Cert.Combine.combine_ix2, val_main_v58_apply, val_main_v30_apply, val_main_v27_apply, val_main_v24_apply,
    val_main_v26_apply, val_main_v29_apply, val_main_v57_apply, val_main_v54_apply, val_main_v51_apply,
    val_main_v53_apply, val_main_v56_apply]
  unfold Cert.Combine.sage
  simp only [l24, r24, l29, r29, l51, r51, l56, r56, b26, b53]
  rfl

end Cert.ReferenceIdeal.Hand

end
-- ==== Proof.CombineClaims.lean ====
/-
  The five claims.

  The three frames: the two kernel programs' are the generated frame runs; the reference, a line of host operations, runs
  to its composed term with the arguments unchanged. The idealization rewrote nothing, so there is nothing to preserve.
  The value claim: at the extended reals the kernel's result array ends holding the two-direction layer of the arrays its
  launch finds, and those arrays are the reference's own stages of the arguments; the reference's result is the same
  layer of the same stages. Both programs add the same six terms in the same order, so no law of the extended reals
  beyond reading a matrix product as a finite sum is used, and the finiteness of the inputs is never opened.
-/
import proofs.«155080_j35905926594660_1_alg».proof.Defs
import proofs.«155080_j35905926594660_1_alg».proof.Proof.Gen.Kernel.Frame
import proofs.«155080_j35905926594660_1_alg».proof.Proof.Gen.Pre_finite_inputs
import proofs.«155080_j35905926594660_1_alg».proof.Proof.Gen.KernelIdeal.Value
import proofs.«155080_j35905926594660_1_alg».proof.Proof.Gen.ReferenceIdeal.Run
import proofs.«155080_j35905926594660_1_alg».proof.Proof.Gen.ReferenceIdeal.Read
import proofs.«155080_j35905926594660_1_alg».proof.Proof.CombineValue
import proofs.«155080_j35905926594660_1_alg».proof.Proof.CombineHost
import proofs.«155080_j35905926594660_1_alg».proof.Proof.CombineRef

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The layer of the arguments: the node features, the reference's two neighbourhood means, its four transposes and its
    two bias rows. -/
def layerOf (x0 : S100000x128.Idx → EReal) (x1 : (⟨S2x640000, .i32⟩ : BufTy).Contents (Elt Ideal))
    (x2 : S128x128.Idx → EReal) (x3 : S128.Idx → EReal) (x4 x5 : S128x128.Idx → EReal) (x6 : S128.Idx → EReal)
    (x7 : S128x128.Idx → EReal) : S100000x128.Idx → EReal :=
  Cert.Combine.combine (M := 100000) x0
    (Cert.ReferenceIdeal.Read.val_main_v22 (F := Ideal) x0 x1) (Cert.ReferenceIdeal.Read.val_main_v49 (F := Ideal) x0 x1)
    (Cert.ReferenceIdeal.Read.val_main_v23 (F := Ideal) x2) (Cert.ReferenceIdeal.Read.val_main_v28 (F := Ideal) x4)
    (Cert.ReferenceIdeal.Read.val_main_v50 (F := Ideal) x5) (Cert.ReferenceIdeal.Read.val_main_v55 (F := Ideal) x7)
    (Cert.ReferenceIdeal.Read.val_main_v25 (F := Ideal) x3) (Cert.ReferenceIdeal.Read.val_main_v52 (F := Ideal) x6)

/-- The layer of the arrays the launch finds is the layer of the arguments. -/
theorem layerV_eq (c : Dev nD) :
    layerV m c = layerOf (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  have a0 : (V m c (Pipeline.arrRef spec0 0) : S100000x128.Idx → EReal) = m ((c : Thread nD τ).loc main_arg0) := V_main_arg0 m c
  have a1 : (V m c (Pipeline.arrRef spec0 1) : S100000x128.Idx → EReal) = _ := V_aggIn m c
  have a2 : (V m c (Pipeline.arrRef spec0 2) : S100000x128.Idx → EReal) = _ := V_aggOut m c
  have a3 : (V m c (Pipeline.arrRef spec0 3) : S128x128.Idx → EReal) = _ := V_wlIn m c
  have a4 : (V m c (Pipeline.arrRef spec0 4) : S128x128.Idx → EReal) = _ := V_wrIn m c
  have a5 : (V m c (Pipeline.arrRef spec0 5) : S128x128.Idx → EReal) = _ := V_wlOut m c
  have a6 : (V m c (Pipeline.arrRef spec0 6) : S128x128.Idx → EReal) = _ := V_wrOut m c
  have a7 : (V m c (Pipeline.arrRef spec0 7) : S1x128.Idx → EReal) = _ := V_bIn m c
  have a8 : (V m c (Pipeline.arrRef spec0 8) : S1x128.Idx → EReal) = _ := V_bOut m c
  unfold layerV layerOf
  exact Cert.Combine.combine_congr a0 a1 a2 a3 a4 a5 a6 a7 a8

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v48) = layerOf (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans ((final m c).trans (layerV_eq m c)), (h c).2⟩)
    (Cert.KernelIdeal.Value.run_blocks m ρ)

end Cert.KernelIdeal.Hand

namespace Cert.Proof.CombineClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the layer of the arguments in their result. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, Cert.ReferenceIdeal.Hand.result_eq, h0, h1, h2, h3, h4, h5, h6, h7]
  rfl

end Cert.Proof.CombineClaims

end
-- ==== Proof.lean ====
/-
  A two-direction neighbourhood layer on a graph of 100000 nodes with 128 features: for each edge direction the mean of
  the neighbours' rows goes through a left weight array, a bias is added, and the node's own row goes through a right
  weight array; the two directions are added. The kernel program computes the two neighbourhood means on the host, by
  the reference's own gather, scatter-add, count and divide, and does the four matrix products and the additions block
  by block of 5000 rows; the reference does them as whole-array host operations. At the extended reals a matrix product
  into a zero accumulator and the host's product are both the finite sum over the inner position, a change of float
  format is the identity, and both programs add the same terms in the same order, so the two results are one function
  of the arguments, entry by entry. The pieces: the layer as a function (CombineSpec), the body's arithmetic at an entry
  of its block (CombineBlock), the blocks put together into the result array (CombineValue), the arrays the launch finds
  as the reference's stages (CombineHost), the reference's result as the layer (CombineRef), the five claims
  (CombineClaims).
-/
import proofs.«155080_j35905926594660_1_alg».proof.Defs
import proofs.«155080_j35905926594660_1_alg».proof.Proof.Gen.Kernel
import proofs.«155080_j35905926594660_1_alg».proof.Proof.Gen.Kernel.Skeleton
import proofs.«155080_j35905926594660_1_alg».proof.Proof.Gen.Kernel.Launch
import proofs.«155080_j35905926594660_1_alg».proof.Proof.Gen.Kernel.Points
import proofs.«155080_j35905926594660_1_alg».proof.Proof.Gen.Kernel.Frame
import proofs.«155080_j35905926594660_1_alg».proof.Proof.Gen.KernelIdeal
import proofs.«155080_j35905926594660_1_alg».proof.Proof.Gen.KernelIdeal.Skeleton
import proofs.«155080_j35905926594660_1_alg».proof.Proof.Gen.KernelIdeal.Launch
import proofs.«155080_j35905926594660_1_alg».proof.Proof.Gen.KernelIdeal.Points
import proofs.«155080_j35905926594660_1_alg».proof.Proof.Gen.KernelIdeal.Frame
import proofs.«155080_j35905926594660_1_alg».proof.Proof.Gen.ReferenceIdeal
import proofs.«155080_j35905926594660_1_alg».proof.Proof.Gen.Pre_finite_inputs
import proofs.«155080_j35905926594660_1_alg».proof.Proof.Gen.KernelIdeal.Value
import proofs.«155080_j35905926594660_1_alg».proof.Proof.Gen.ReferenceIdeal.Run
import proofs.«155080_j35905926594660_1_alg».proof.Proof.Gen.ReferenceIdeal.Read
import proofs.«155080_j35905926594660_1_alg».proof.Proof.CombineClaims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  CombineClaims.frame_k, CombineClaims.frame_ki, CombineClaims.frame_ri, CombineClaims.preserves, CombineClaims.algebraic⟩

end Cert.Proof

end
